-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000x64 : Shape := ⟨2, ![800000, 64]⟩
abbrev S2x800000 : Shape := ⟨2, ![2, 800000]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S800000x64 .f32) (main_arg2 : FVec F S800000x64 .f32) (main_arg3 : IVec S2x800000 32) (main_arg4 : IVec S2x800000 32) (main_arg5 : FVec F S256x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S800000x64 .f32 := Host.absf main_arg2
  let main_cst_2 : FVec F S_ .f32 := constant S_ .f32 0x7F800000#32
  let main_v10 : FVec F S800000x64 .f32 := broadcastInDim S800000x64 ![] bcast_S_S800000x64 main_cst_2
  let main_v11 : IVec S800000x64 1 := cmpf .olt main_v9 main_v10
  let main_c_3 : IVec S_ 1 := constantI S_ 1 1#1
  let main_v12 : IVec S_ 1 := (fun x v => Host.reduce IntOp.andi x v reducesTo_S800000x64_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_v13 main_v16
-- ==== Kernel.lean ====
abbrev S100000x128 : Shape := ⟨2, ![100000, 128]⟩
abbrev S800000x64 : Shape := ⟨2, ![800000, 64]⟩
abbrev S2x800000 : Shape := ⟨2, ![2, 800000]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S100000x64 : Shape := ⟨2, ![100000, 64]⟩
abbrev S800000x1 : Shape := ⟨2, ![800000, 1]⟩
abbrev S64x128 : Shape := ⟨2, ![64, 128]⟩
abbrev S128x128 : Shape := ⟨2, ![128, 128]⟩
abbrev S5000x64 : Shape := ⟨2, ![5000, 64]⟩
abbrev S5000x128 : Shape := ⟨2, ![5000, 128]⟩
abbrev S1x128 : Shape := ⟨2, ![1, 128]⟩

abbrev nBuf : Space → Nat
  | .hbm => 23
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S800000x64, .f32⟩
  | .hbm, ⟨2, _⟩ => ⟨S800000x64, .f32⟩
  | .hbm, ⟨3, _⟩ => ⟨S2x800000, .i32⟩
  | .hbm, ⟨4, _⟩ => ⟨S2x800000, .i32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S100000x64, .f32⟩
  | .hbm, ⟨11, _⟩ => ⟨S800000x1, .i32⟩
  | .hbm, ⟨12, _⟩ => ⟨S100000x64, .f32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S100000x64, .f32⟩
  | .hbm, ⟨17, _⟩ => ⟨S800000x1, .i32⟩
  | .hbm, ⟨18, _⟩ => ⟨S100000x64, .f32⟩
  | .hbm, ⟨19, _⟩ => ⟨S64x128, .f32⟩
  | .hbm, ⟨20, _⟩ => ⟨S64x128, .f32⟩
  | .hbm, ⟨21, _⟩ => ⟨S128x128, .f32⟩
  | .hbm, ⟨22, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x128, .f32⟩
  | .local _ .vmem, ⟨5, _⟩ => ⟨S5000x128, .f32⟩
  | .local _ .vmem, ⟨6, _⟩ => ⟨S64x128, .f32⟩
  | .local _ .vmem, ⟨7, _⟩ => ⟨S64x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_1_0 : S2x800000.Slices ![1, 0] S1x800000
  shapeCasts_S1x800000_S800000 : S1x800000.ShapeCasts S800000
  bcast_S_S100000x64 : S_.BroadcastsInDim S100000x64 (![] : Fin 0 → Fin S100000x64.rank)
  bcast_S800000_S800000x1_0 : S800000.BroadcastsInDim S800000x1 (![0] : Fin 1 → Fin S800000x1.rank)
  slices_S256x128_S64x128_0_0 : S256x128.Slices ![0, 0] S64x128
  slices_S256x128_S64x128_64_0 : S256x128.Slices ![64, 0] S64x128
  slices_S256x128_S128x128_128_0 : S256x128.Slices ![128, 0] S128x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000x64_S800000x1_S800000x64_1_0_0_1_wf : ScatterDims.WF S100000x64 S800000x1 S800000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)

variable [Facts₀]

def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S800000x64 : Shape := ⟨2, ![800000, 64]⟩
abbrev S2x800000 : Shape := ⟨2, ![2, 800000]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S100000x64 : Shape := ⟨2, ![100000, 64]⟩
abbrev S800000x1 : Shape := ⟨2, ![800000, 1]⟩
abbrev S100000x256 : Shape := ⟨2, ![100000, 256]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000x64, .f32⟩
  | .hbm, ⟨2, _⟩ => ⟨S800000x64, .f32⟩
  | .hbm, ⟨3, _⟩ => ⟨S2x800000, .i32⟩
  | .hbm, ⟨4, _⟩ => ⟨S2x800000, .i32⟩
  | .hbm, ⟨5, _⟩ => ⟨S256x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S100000x64, .f32⟩
  | .hbm, ⟨11, _⟩ => ⟨S800000x1, .i32⟩
  | .hbm, ⟨12, _⟩ => ⟨S100000x64, .f32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S100000x64, .f32⟩
  | .hbm, ⟨17, _⟩ => ⟨S800000x1, .i32⟩
  | .hbm, ⟨18, _⟩ => ⟨S100000x64, .f32⟩
  | .hbm, ⟨19, _⟩ => ⟨S100000x256, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S100000x64 : S_.BroadcastsInDim S100000x64 (![] : Fin 0 → Fin S100000x64.rank)
  bcast_S800000_S800000x1_0 : S800000.BroadcastsInDim S800000x1 (![0] : Fin 1 → Fin S800000x1.rank)
  concatenates_S100000x64_S100000x64_S100000x128_S100000x256_d1 : Shape.Concatenates [S100000x64, S100000x64, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000x64_S800000x1_S800000x64_1_0_0_1_wf : ScatterDims.WF S100000x64 S800000x1 S800000x64 [1] [0] [0] 1
  dot_S100000x256_S256x128_S100000x128_1_0_0_1_n_n_wf : DotDims.WF S100000x256 S256x128 S100000x128 [1] [0] [0] [1] [] []

variable [Facts₀]

def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Payload.lean ====
/-
  What one grid step computes, entry by entry.

  The step holds a block of 5000 rows of each of the three feature arrays (`a`, `c` of width 64 and `v` of width 128),
  the three row blocks of the weight (`wa`, `wb` of 64 rows and `wv` of 128 rows) and the bias `b`, and stores

      (a·wa + c·wb) + v·wv + b     (the bias repeated down the rows).

  At the exact extended-real values a change of float format is the identity and a matrix product into a zero
  accumulator is the plain sum over the shared index, so entry `(p, q)` of the stored block is

      ((Σ_{k<64} a[p,k]·wa[k,q] + Σ_{k<64} c[p,k]·wb[k,q]) + Σ_{k<128} v[p,k]·wv[k,q]) + b[q].
-/
import proofs.«173913_j74285754352302_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The two matrix products at an entry -/

/-- The left operand's row coordinate is the output's row. -/
theorem lhs64_row (j : S5000x128.Idx) (k : dot_S5000x64_S64x128_S5000x128_1_0_0_1_n_n.contr.Idx) :
    (dot_S5000x64_S64x128_S5000x128_1_0_0_1_n_n.lhsIdx j k 0).val = (j 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl

/-- The right operand's column coordinate is the output's column. -/
theorem rhs64_col (j : S5000x128.Idx) (k : dot_S5000x64_S64x128_S5000x128_1_0_0_1_n_n.contr.Idx) :
    (dot_S5000x64_S64x128_S5000x128_1_0_0_1_n_n.rhsIdx j k 1).val = (j 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- A 5000×64 block times a 64×128 block into zero: entry `(p, q)` is the sum over the 64 shared indices. -/
theorem matmul64_apply (l : FVec Ideal S5000x64 .bf16) (w : FVec Ideal S64x128 .bf16) (p : Fin 5000) (q : Fin 128) :
    matmul dot_S5000x64_S64x128_S5000x128_1_0_0_1_n_n none l w (constant (F := Ideal) S5000x128 .f32 0x00000000#32) (ix2 p q)
      = ∑ k : Fin 64, l (ix2 p k) * w (ix2 k q) := by
  simp only [matmul]
  rw [Ideal.matmul_constant_zero_apply,
    ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q)
      ((contrEquiv1 dot_S5000x64_S64x128_S5000x128_1_0_0_1_n_n 64 rfl rfl).symm k) = ix2 p k :=
    funext fun a => Fin.ext (by
      match a with
      | ⟨0, _⟩ => exact lhs64_row _ _
      | ⟨1, _⟩ => exact (dot_S5000x64_S64x128_S5000x128_1_0_0_1_n_n.lhsIdx_val_of_single rfl _ _).trans hk)
  have er : dot_S5000x64_S64x128_S5000x128_1_0_0_1_n_n.rhsIdx (ix2 p q)
      ((contrEquiv1 dot_S5000x64_S64x128_S5000x128_1_0_0_1_n_n 64 rfl rfl).symm k) = ix2 k q :=
    funext fun a => Fin.ext (by
      match a with
      | ⟨0, _⟩ => exact (dot_S5000x64_S64x128_S5000x128_1_0_0_1_n_n.rhsIdx_val_of_single rfl _ _).trans hk
      | ⟨1, _⟩ => exact rhs64_col _ _)
  rw [el, er]

theorem lhs128_row (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem rhs128_col (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000×128 block times a 128×128 block into zero: entry `(p, q)` is the sum over the 128 shared indices. -/
theorem matmul128_apply (l : FVec Ideal S5000x128 .bf16) (w : FVec Ideal S128x128 .bf16) (p : Fin 5000) (q : Fin 128) :
    matmul dot_S5000x128_S128x128_S5000x128_1_0_0_1_n_n none l w (constant (F := Ideal) S5000x128 .f32 0x00000000#32) (ix2 p q)
      = ∑ k : Fin 128, l (ix2 p k) * w (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs128_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs128_col _ _)
  rw [el, er]

/-! ## The bias repeated down the rows -/

/-- The bias as one row, repeated over 5000 rows: entry `(p, q)` is `b[q]`. -/
theorem bias_apply (b : S128.Idx → EReal) (h1 : S128.ShapeCasts S1x128) (h2 : S1x128.Broadcasts S5000x128)
    (p : Fin 5000) (q : Fin 128) :
    broadcastTo S5000x128 (shapeCast S1x128 b h1) h2 (ix2 p q) = b (ix1 q) := by
  refine (broadcastTo_apply (shapeCast S1x128 b h1) h2 (ix2 p q) (ix2 (0 : Fin 1) q) (fun a => ?_)).trans ?_
  · match a with
    | ⟨0, _⟩ => show (0 : Nat) = if (1 : Nat) = 1 then 0 else p.val; rw [if_pos rfl]
    | ⟨1, _⟩ => show q.val = if (128 : Nat) = 1 then 0 else q.val; rw [if_neg (by decide)]
  · refine shapeCast_apply b h1 (ix2 (0 : Fin 1) q) (ix1 q) ?_
    rewrite [Shape.rowMajor_val_two, Shape.rowMajor_val_one]
    show q.val = 0 * 128 + q.val
    omega

/-! ## The stored block at an entry -/

/-- Entry `(p, q)` of the block one grid step stores, from the blocks it loaded. -/
theorem pay_apply (x0 x1 : Vec Ideal S5000x64 .f32) (x2 : Vec Ideal S5000x128 .f32) (x3 x4 : Vec Ideal S64x128 .f32)
    (x5 : Vec Ideal S128x128 .f32) (x6 : Vec Ideal S128 .f32) (p : Fin 5000) (q : Fin 128) :
    k0_pay1 x0 x1 x2 x3 x4 x5 x6 (ix2 p q)
      = ((∑ k : Fin 64, x0 (ix2 p k) * x3 (ix2 k q) + ∑ k : Fin 64, x1 (ix2 p k) * x4 (ix2 k q))
          + ∑ k : Fin 128, x2 (ix2 p k) * x5 (ix2 k q)) + x6 (ix1 q) := by
  unfold k0_pay1
  simp only [shapeCast_self]
  rw [addf_apply, addf_apply, addf_apply, matmul64_apply, matmul64_apply, matmul128_apply, bias_apply]
  rfl

end Cert.KernelIdeal.Body

end
-- ==== Proof.SplitSum.lean ====
/-
  A sum over 256 consecutive indices cut into its first 64, its next 64 and its last 128 terms.

  Only the commutative-monoid structure of addition is used, so the law holds verbatim on the extended
  reals: no term has to be finite and nothing is cancelled or distributed.
-/
import Mathlib.Algebra.BigOperators.Fin

namespace Cert.NodeUpdate

open scoped BigOperators

/-- Row `k` of the first 64 rows of a 256-row array. -/
abbrev rowA (k : Fin 64) : Fin 256 := ⟨k.val, by have := k.isLt; omega⟩
/-- Row `64 + k`: the second 64 rows. -/
abbrev rowB (k : Fin 64) : Fin 256 := ⟨64 + k.val, by have := k.isLt; omega⟩
/-- Row `128 + k`: the last 128 rows. -/
abbrev rowX (k : Fin 128) : Fin 256 := ⟨128 + k.val, by have := k.isLt; omega⟩

/-- `Σ_{k<256} f k = (Σ_{k<64} f k + Σ_{k<64} f (64+k)) + Σ_{k<128} f (128+k)` in any commutative monoid. -/
theorem sum_256_split {M : Type*} [AddCommMonoid M] (f : Fin 256 → M) :
    ∑ k : Fin 256, f k = (∑ k : Fin 64, f (rowA k) + ∑ k : Fin 64, f (rowB k)) + ∑ k : Fin 128, f (rowX k) := by
  have h1 : ∑ k : Fin 256, f k
      = ∑ k : Fin 128, f ⟨k.val, by have := k.isLt; omega⟩ + ∑ k : Fin 128, f (rowX k) :=
    Fin.sum_univ_add (a := 128) (b := 128) f
  have h2 : ∑ k : Fin 128, f ⟨k.val, by have := k.isLt; omega⟩
      = ∑ k : Fin 64, f (rowA k) + ∑ k : Fin 64, f (rowB k) :=
    Fin.sum_univ_add (a := 64) (b := 64) (fun k : Fin 128 => f ⟨k.val, by have := k.isLt; omega⟩)
  rw [h1, h2]

end Cert.NodeUpdate
-- ==== Proof.Entry.lean ====
/-
  What the grid finds in the arrays that were computed before it.

  Five of the arrays the grid reads are not arguments: the two aggregated edge arrays (the edge rows summed into
  their receiving nodes), and the three row blocks of the weight, rows 0–63, 64–127 and 128–255. The aggregated
  arrays are named and kept whole; a row block of the weight read at `(k, j)` is the weight at the block's first row
  plus `k`.
-/
import proofs.«173913_j74285754352302_1_alg».proof.Proof.Gen.KernelIdeal.Frame
import proofs.«173913_j74285754352302_1_alg».proof.Proof.SplitSum
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Cert.NodeUpdate
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The first aggregated array: rows of the first edge array summed into the nodes the first connectivity's second row names. -/
def aggA (c : Dev nD) : S100000x64.Idx → EReal :=
  Host.scatterAdd scatter_S100000x64_S800000x1_S800000x64_1_0_0_1
    (broadcastInDim S100000x64 ![] bcast_S_S100000x64 (constant (F := Ideal) S_ .f32 0x00000000#32))
    (broadcastInDim S800000x1 ![0] bcast_S800000_S800000x1_0
      (shapeCast _ (extractStridedSlice S1x800000 ![1, 0] (m ((c : Thread nD τ).loc main_arg3)) slices_S2x800000_S1x800000_1_0) shapeCasts_S1x800000_S800000))
    (m ((c : Thread nD τ).loc main_arg1))

/-- The second aggregated array, from the second edge array and the second connectivity. -/
def aggB (c : Dev nD) : S100000x64.Idx → EReal :=
  Host.scatterAdd scatter_S100000x64_S800000x1_S800000x64_1_0_0_1
    (broadcastInDim S100000x64 ![] bcast_S_S100000x64 (constant (F := Ideal) S_ .f32 0x00000000#32))
    (broadcastInDim S800000x1 ![0] bcast_S800000_S800000x1_0
      (shapeCast _ (extractStridedSlice S1x800000 ![1, 0] (m ((c : Thread nD τ).loc main_arg4)) slices_S2x800000_S1x800000_1_0) shapeCasts_S1x800000_S800000))
    (m ((c : Thread nD τ).loc main_arg2))

theorem entry_aggA (c : Dev nD) : (V m c main_v4 : S100000x64.Idx → EReal) = aggA m c := by
  dsimp only [V, hostOps0]; after_results <;> rfl

theorem entry_aggB (c : Dev nD) : (V m c main_v9 : S100000x64.Idx → EReal) = aggB m c := by
  dsimp only [V, hostOps0]; after_results <;> rfl

theorem entry_wa (c : Dev nD) : (V m c main_v10 : S64x128.Idx → EReal)
    = extractStridedSlice S64x128 ![0, 0] (m ((c : Thread nD τ).loc main_arg5)) slices_S256x128_S64x128_0_0 := by
  dsimp only [V, hostOps0]; after_results <;> rfl

theorem entry_wb (c : Dev nD) : (V m c main_v11 : S64x128.Idx → EReal)
    = extractStridedSlice S64x128 ![64, 0] (m ((c : Thread nD τ).loc main_arg5)) slices_S256x128_S64x128_64_0 := by
  dsimp only [V, hostOps0]; after_results <;> rfl

theorem entry_wx (c : Dev nD) : (V m c main_v12 : S128x128.Idx → EReal)
    = extractStridedSlice S128x128 ![128, 0] (m ((c : Thread nD τ).loc main_arg5)) slices_S256x128_S128x128_128_0 := by
  dsimp only [V, hostOps0]; after_results <;> rfl

/-- Rows 0–63 of the weight. -/
theorem entry_wa_apply (c : Dev nD) (k : Fin 64) (j : Fin 128) :
    (V m c main_v10 : S64x128.Idx → EReal) (ix2 k j) = (m ((c : Thread nD τ).loc main_arg5) : S256x128.Idx → EReal) (ix2 (rowA k) j) := by
  rw [entry_wa]
  exact extractStridedSlice_apply ![0, 0] _ slices_S256x128_S64x128_0_0 (ix2 k j) (ix2 (rowA k) j) (fun a => match a with
    | ⟨0, _⟩ => by show k.val = 0 + k.val; omega
    | ⟨1, _⟩ => by show j.val = 0 + j.val; omega)

/-- Rows 64–127 of the weight. -/
theorem entry_wb_apply (c : Dev nD) (k : Fin 64) (j : Fin 128) :
    (V m c main_v11 : S64x128.Idx → EReal) (ix2 k j) = (m ((c : Thread nD τ).loc main_arg5) : S256x128.Idx → EReal) (ix2 (rowB k) j) := by
  rw [entry_wb]
  exact extractStridedSlice_apply ![64, 0] _ slices_S256x128_S64x128_64_0 (ix2 k j) (ix2 (rowB k) j) (fun a => match a with
    | ⟨0, _⟩ => by show 64 + k.val = 64 + k.val; rfl
    | ⟨1, _⟩ => by show j.val = 0 + j.val; omega)

/-- Rows 128–255 of the weight. -/
theorem entry_wx_apply (c : Dev nD) (k : Fin 128) (j : Fin 128) :
    (V m c main_v12 : S128x128.Idx → EReal) (ix2 k j) = (m ((c : Thread nD τ).loc main_arg5) : S256x128.Idx → EReal) (ix2 (rowX k) j) := by
  rw [entry_wx]
  exact extractStridedSlice_apply ![128, 0] _ slices_S256x128_S128x128_128_0 (ix2 k j) (ix2 (rowX k) j) (fun a => match a with
    | ⟨0, _⟩ => by show 128 + k.val = 128 + k.val; rfl
    | ⟨1, _⟩ => by show j.val = 0 + j.val; omega)

end Cert.KernelIdeal.Entry

end
-- ==== Proof.Spec.lean ====
/-
  The node update as ONE function of its array arguments, over the extended reals.

  For node `r` and output channel `j`,

      out[r, j] = ((Σ_{k<64} A[r,k]·W[k,j] + Σ_{k<64} B[r,k]·W[64+k,j]) + Σ_{k<128} X[r,k]·W[128+k,j]) + b[j],

  where `A`, `B` are the two arrays of edge features summed into their receiving nodes, `X` the node features,
  `W` the 256×128 weight and `b` the bias. `nodeUpdate` states it with `W` whole; `rowBlocks` states the same with the
  three row blocks of `W` given as separate arrays, and `rowBlocks_eq_nodeUpdate` joins the two when the three
  arrays are those row blocks. The product of the concatenated row `[A[r,:] , B[r,:] , X[r,:]]` with `W` is this
  value by cutting the sum over 256 indices at 64 and 128 (`dot_concat`): addition on the extended reals is
  commutative and associative, and nothing else is used.
-/
import Idealize.ShloMosaic.PureOps.Ideal
import Idealize.ShloMosaic.Lib.ValueIdx
import proofs.«173913_j74285754352302_1_alg».proof.Proof.SplitSum

noncomputable section

namespace Cert.NodeUpdate

open Idealize.ShloMosaic Idealize.ShloMosaic.ValueIdx
open scoped BigOperators

/-- The value at node `r`, channel `j`, the weight's three row blocks given separately. -/
def rowBlocksAt (A B : FVec Ideal ⟨2, ![100000, 64]⟩ .f32) (X : FVec Ideal ⟨2, ![100000, 128]⟩ .f32)
    (Wa Wb : FVec Ideal ⟨2, ![64, 128]⟩ .f32) (Wx : FVec Ideal ⟨2, ![128, 128]⟩ .f32) (b : FVec Ideal ⟨1, ![128]⟩ .f32)
    (r : Fin 100000) (j : Fin 128) : EReal :=
  ((∑ k : Fin 64, A (ix2 r k) * Wa (ix2 k j) + ∑ k : Fin 64, B (ix2 r k) * Wb (ix2 k j))
      + ∑ k : Fin 128, X (ix2 r k) * Wx (ix2 k j)) + b (ix1 j)

/-- The whole array, the weight's three row blocks given separately. -/
def rowBlocks (A B : FVec Ideal ⟨2, ![100000, 64]⟩ .f32) (X : FVec Ideal ⟨2, ![100000, 128]⟩ .f32)
    (Wa Wb : FVec Ideal ⟨2, ![64, 128]⟩ .f32) (Wx : FVec Ideal ⟨2, ![128, 128]⟩ .f32) (b : FVec Ideal ⟨1, ![128]⟩ .f32) :
    FVec Ideal ⟨2, ![100000, 128]⟩ .f32 :=
  fun i => rowBlocksAt A B X Wa Wb Wx b (i 0) (i 1)

/-- The value at node `r`, channel `j`, over the whole weight. -/
def nodeUpdateAt (A B : FVec Ideal ⟨2, ![100000, 64]⟩ .f32) (X : FVec Ideal ⟨2, ![100000, 128]⟩ .f32)
    (W : FVec Ideal ⟨2, ![256, 128]⟩ .f32) (b : FVec Ideal ⟨1, ![128]⟩ .f32) (r : Fin 100000) (j : Fin 128) : EReal :=
  ((∑ k : Fin 64, A (ix2 r k) * W (ix2 (rowA k) j) + ∑ k : Fin 64, B (ix2 r k) * W (ix2 (rowB k) j))
      + ∑ k : Fin 128, X (ix2 r k) * W (ix2 (rowX k) j)) + b (ix1 j)

/-- The node update: the whole result array as one function of the five arrays. -/
def nodeUpdate (A B : FVec Ideal ⟨2, ![100000, 64]⟩ .f32) (X : FVec Ideal ⟨2, ![100000, 128]⟩ .f32)
    (W : FVec Ideal ⟨2, ![256, 128]⟩ .f32) (b : FVec Ideal ⟨1, ![128]⟩ .f32) : FVec Ideal ⟨2, ![100000, 128]⟩ .f32 :=
  fun i => nodeUpdateAt A B X W b (i 0) (i 1)

/-- With the three arrays the weight's row blocks, the two statements are one. -/
theorem rowBlocks_eq_nodeUpdate (A B : FVec Ideal ⟨2, ![100000, 64]⟩ .f32) (X : FVec Ideal ⟨2, ![100000, 128]⟩ .f32)
    (Wa Wb : FVec Ideal ⟨2, ![64, 128]⟩ .f32) (Wx : FVec Ideal ⟨2, ![128, 128]⟩ .f32) (W : FVec Ideal ⟨2, ![256, 128]⟩ .f32)
    (b : FVec Ideal ⟨1, ![128]⟩ .f32)
    (hWa : ∀ (k : Fin 64) (j : Fin 128), Wa (ix2 k j) = W (ix2 (rowA k) j))
    (hWb : ∀ (k : Fin 64) (j : Fin 128), Wb (ix2 k j) = W (ix2 (rowB k) j))
    (hWx : ∀ (k : Fin 128) (j : Fin 128), Wx (ix2 k j) = W (ix2 (rowX k) j)) :
    rowBlocks A B X Wa Wb Wx b = nodeUpdate A B X W b := by
  have at_point : ∀ (r : Fin 100000) (j : Fin 128),
      rowBlocksAt A B X Wa Wb Wx b r j = nodeUpdateAt A B X W b r j := by
    intro r j
    unfold rowBlocksAt nodeUpdateAt
    simp only [hWa, hWb, hWx]
  funext i
  exact at_point (i 0) (i 1)

/-- A row of 256 entries that is `A[r,:]`, `B[r,:]`, `X[r,:]` laid end to end, multiplied into column `j` of `W` and
    offset by `b[j]`, is the node update at `(r, j)`. -/
theorem dot_concat (A B : FVec Ideal ⟨2, ![100000, 64]⟩ .f32) (X : FVec Ideal ⟨2, ![100000, 128]⟩ .f32)
    (W : FVec Ideal ⟨2, ![256, 128]⟩ .f32) (b : FVec Ideal ⟨1, ![128]⟩ .f32) (r : Fin 100000) (j : Fin 128)
    (row : Fin 256 → EReal)
    (hA : ∀ k : Fin 64, row (rowA k) = A (ix2 r k)) (hB : ∀ k : Fin 64, row (rowB k) = B (ix2 r k))
    (hX : ∀ k : Fin 128, row (rowX k) = X (ix2 r k)) :
    (∑ k : Fin 256, row k * W (ix2 k j)) + b (ix1 j) = nodeUpdateAt A B X W b r j := by
  unfold nodeUpdateAt
  rw [sum_256_split (fun k => row k * W (ix2 k j))]
  simp only [hA, hB, hX]

end Cert.NodeUpdate

end
-- ==== Proof.Whole.lean ====
/-
  From the twenty blocks to the whole result array.

  Grid step `t` (of 20) reads rows `5000·t … 5000·t + 4999` of each of the three feature arrays, the three row blocks of
  the weight and the bias whole, and writes rows `5000·t … 5000·t + 4999` of the result. Entry `(p, q)` of the block it
  writes is therefore the node update at row `5000·t + p`, channel `q`: the block is the restriction of ONE function of
  the arrays (`found`) to those rows. Every row `r` lies in the block of step `r / 5000`, so the twenty blocks cover the
  result, which thus ends holding that function; and with the arrays computed before the grid read back to the
  arguments, the function is the node update of the aggregated arrays, the node features, the weight and the bias.
-/
import proofs.«173913_j74285754352302_1_alg».proof.Proof.Gen.KernelIdeal.Value
import proofs.«173913_j74285754352302_1_alg».proof.Proof.Payload
import proofs.«173913_j74285754352302_1_alg».proof.Proof.Entry
import proofs.«173913_j74285754352302_1_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Cert.KernelIdeal.Body Cert.KernelIdeal.Entry Cert.NodeUpdate
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- Which block each window is on at step `t`: the three feature arrays and the result are on row block `t`; the
    weight's row blocks and the bias stay on their one block. Decided over the twenty steps. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- The result array as one function of the arrays the grid finds (window `w`'s array is `Pipeline.arrRef spec0 w`). -/
abbrev found (c : Dev nD) : S100000x128.Idx → EReal :=
  rowBlocks (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6))

/-! ## Each window's block at a step, of ANY array, read at an entry -/

/-- Step `t`'s block of the first aggregated array is its rows `5000·t …`. -/
theorem readA (X : S100000x64.Idx → EReal) (t : Fin cfg0.N) (p : Fin 5000) (k : Fin 64) (r : Fin 100000) (hr : r.val = t.val * 5000 + p.val) :
    ((((cfg0.win 0).blk t).view.read (Elt Ideal) X) : S5000x64.Idx → EReal) (ix2 p k) = X (ix2 r k) := by
  obtain ⟨e0, e1, -⟩ := idx_facts t
  show X (((cfg0.win 0).blk t).view.emb (ix2 p k)) = X (ix2 r k)
  refine congrArg X (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- Step `t`'s block of the second aggregated array is its rows `5000·t …`. -/
theorem readB (X : S100000x64.Idx → EReal) (t : Fin cfg0.N) (p : Fin 5000) (k : Fin 64) (r : Fin 100000) (hr : r.val = t.val * 5000 + p.val) :
    ((((cfg0.win 1).blk t).view.read (Elt Ideal) X) : S5000x64.Idx → EReal) (ix2 p k) = X (ix2 r k) := by
  obtain ⟨-, -, e0, e1, -⟩ := idx_facts t
  show X (((cfg0.win 1).blk t).view.emb (ix2 p k)) = X (ix2 r k)
  refine congrArg X (funext fun a => Fin.ext ?_)
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

/-- Step `t`'s block of the node features is its rows `5000·t …`. -/
theorem readX (X : S100000x128.Idx → EReal) (t : Fin cfg0.N) (p : Fin 5000) (k : Fin 128) (r : Fin 100000) (hr : r.val = t.val * 5000 + p.val) :
    ((((cfg0.win 2).blk t).view.read (Elt Ideal) X) : S5000x128.Idx → EReal) (ix2 p k) = X (ix2 r k) := by
  obtain ⟨-, -, -, -, e0, e1, -⟩ := idx_facts t
  show X (((cfg0.win 2).blk t).view.emb (ix2 p k)) = X (ix2 r k)
  refine congrArg X (funext fun a => Fin.ext ?_)
  match a with
  | ⟨0, _⟩ => show win0_2.index t (0 : Fin 2) * 5000 + 1 * p.val = r.val; rw [e0, hr]; omega
  | ⟨1, _⟩ => show win0_2.index t (1 : Fin 2) * 128 + 1 * k.val = k.val; rw [e1]; omega

/-- The first weight block is read whole at every step. -/
theorem readWa (X : S64x128.Idx → EReal) (t : Fin cfg0.N) (k : Fin 64) (q : Fin 128) :
    ((((cfg0.win 3).blk t).view.read (Elt Ideal) X) : S64x128.Idx → EReal) (ix2 k q) = X (ix2 k q) := by
  obtain ⟨-, -, -, -, -, -, e0, e1, -⟩ := idx_facts t
  show X (((cfg0.win 3).blk t).view.emb (ix2 k q)) = X (ix2 k q)
  refine congrArg X (funext fun a => Fin.ext ?_)
  match a with
  | ⟨0, _⟩ => show win0_3.index t (0 : Fin 2) * 64 + 1 * k.val = k.val; rw [e0]; omega
  | ⟨1, _⟩ => show win0_3.index t (1 : Fin 2) * 128 + 1 * q.val = q.val; rw [e1]; omega

/-- The second weight block is read whole at every step. -/
theorem readWb (X : S64x128.Idx → EReal) (t : Fin cfg0.N) (k : Fin 64) (q : Fin 128) :
    ((((cfg0.win 4).blk t).view.read (Elt Ideal) X) : S64x128.Idx → EReal) (ix2 k q) = X (ix2 k q) := by
  obtain ⟨-, -, -, -, -, -, -, -, e0, e1, -⟩ := idx_facts t
  show X (((cfg0.win 4).blk t).view.emb (ix2 k q)) = X (ix2 k q)
  refine congrArg X (funext fun a => Fin.ext ?_)
  match a with
  | ⟨0, _⟩ => show win0_4.index t (0 : Fin 2) * 64 + 1 * k.val = k.val; rw [e0]; omega
  | ⟨1, _⟩ => show win0_4.index t (1 : Fin 2) * 128 + 1 * q.val = q.val; rw [e1]; omega

/-- The third weight block is read whole at every step. -/
theorem readWx (X : S128x128.Idx → EReal) (t : Fin cfg0.N) (k : Fin 128) (q : Fin 128) :
    ((((cfg0.win 5).blk t).view.read (Elt Ideal) X) : S128x128.Idx → EReal) (ix2 k q) = X (ix2 k q) := by
  obtain ⟨-, -, -, -, -, -, -, -, -, -, e0, e1, -⟩ := idx_facts t
  show X (((cfg0.win 5).blk t).view.emb (ix2 k q)) = X (ix2 k q)
  refine congrArg X (funext fun a => Fin.ext ?_)
  match a with
  | ⟨0, _⟩ => show win0_5.index t (0 : Fin 2) * 128 + 1 * k.val = k.val; rw [e0]; omega
  | ⟨1, _⟩ => show win0_5.index t (1 : Fin 2) * 128 + 1 * q.val = q.val; rw [e1]; omega

/-- The bias is read whole at every step. -/
theorem readBias (X : S128.Idx → EReal) (t : Fin cfg0.N) (q : Fin 128) :
    ((((cfg0.win 6).blk t).view.read (Elt Ideal) X) : S128.Idx → EReal) (ix1 q) = X (ix1 q) := by
  obtain ⟨-, -, -, -, -, -, -, -, -, -, -, -, e0, -⟩ := idx_facts t
  show X (((cfg0.win 6).blk t).view.emb (ix1 q)) = X (ix1 q)
  refine congrArg X (funext fun a => Fin.ext ?_)
  match a with
  | ⟨0, _⟩ => show win0_6.index t (0 : Fin 1) * 128 + 1 * q.val = q.val; rw [e0]; omega

/-! ## What step `t` writes back -/

/-- For ANY seven arrays: what step `t` computes from its blocks of them is rows `5000·t …` of `rowBlocks` of them. -/
theorem block_eq (A B : S100000x64.Idx → EReal) (X : S100000x128.Idx → EReal) (Wa Wb : S64x128.Idx → EReal)
    (Wx : S128x128.Idx → EReal) (b : S128.Idx → EReal) (t : Fin cfg0.N) :
    (cfg0.win 7).cut (grid0.coords t) (k0_pay1 (((cfg0.win 0).blk t).view.read (Elt Ideal) A) (((cfg0.win 1).blk t).view.read (Elt Ideal) B) (((cfg0.win 2).blk t).view.read (Elt Ideal) X)
        (((cfg0.win 3).blk t).view.read (Elt Ideal) Wa) (((cfg0.win 4).blk t).view.read (Elt Ideal) Wb) (((cfg0.win 5).blk t).view.read (Elt Ideal) Wx) (((cfg0.win 6).blk t).view.read (Elt Ideal) b))
      = ((cfg0.win 7).blk t).view.read (Elt Ideal) (rowBlocks A B X Wa Wb Wx b) := by
  obtain ⟨-, -, -, -, -, -, -, -, -, -, -, -, -, e0, e1⟩ := idx_facts t
  have hN : t.val < 20 := Nat.lt_of_lt_of_eq t.isLt N_0
  funext y
  obtain ⟨p, q, rfl⟩ : ∃ (p : Fin 5000) (q : Fin 128), y = ix2 p q := ⟨y 0, y 1, eq_ix2 y⟩
  show k0_pay1 (((cfg0.win 0).blk t).view.read (Elt Ideal) A) (((cfg0.win 1).blk t).view.read (Elt Ideal) B) (((cfg0.win 2).blk t).view.read (Elt Ideal) X)
        (((cfg0.win 3).blk t).view.read (Elt Ideal) Wa) (((cfg0.win 4).blk t).view.read (Elt Ideal) Wb) (((cfg0.win 5).blk t).view.read (Elt Ideal) Wx) (((cfg0.win 6).blk t).view.read (Elt Ideal) b) (ix2 p q)
      = rowBlocks A B X Wa Wb Wx b (((cfg0.win 7).blk t).view.emb (ix2 p q))
  refine (pay_apply (((cfg0.win 0).blk t).view.read (Elt Ideal) A) (((cfg0.win 1).blk t).view.read (Elt Ideal) B) (((cfg0.win 2).blk t).view.read (Elt Ideal) X)
        (((cfg0.win 3).blk t).view.read (Elt Ideal) Wa) (((cfg0.win 4).blk t).view.read (Elt Ideal) Wb) (((cfg0.win 5).blk t).view.read (Elt Ideal) Wx) (((cfg0.win 6).blk t).view.read (Elt Ideal) b) p q).trans ?_
  have hemb : ((cfg0.win 7).blk t).view.emb (ix2 p q)
      = ix2 (⟨t.val * 5000 + p.val, by have := p.isLt; omega⟩ : Fin 100000) q :=
    funext fun a => Fin.ext (by
      match a with
      | ⟨0, _⟩ => show win0_7.index t (0 : Fin 2) * 5000 + 1 * p.val = t.val * 5000 + p.val; rw [e0]; omega
      | ⟨1, _⟩ => show win0_7.index t (1 : Fin 2) * 128 + 1 * q.val = q.val; rw [e1]; omega)
  rw [hemb]
  show _ = rowBlocksAt A B X Wa Wb Wx b (⟨t.val * 5000 + p.val, by have := p.isLt; omega⟩ : Fin 100000) q
  unfold rowBlocksAt
  simp only [fun k => readA A t p k (⟨t.val * 5000 + p.val, by have := p.isLt; omega⟩ : Fin 100000) rfl,
    fun k => readB B t p k (⟨t.val * 5000 + p.val, by have := p.isLt; omega⟩ : Fin 100000) rfl,
    fun k => readX X t p k (⟨t.val * 5000 + p.val, by have := p.isLt; omega⟩ : Fin 100000) rfl,
    readWa Wa t, readWb Wb t, readWx Wx t, readBias b t]

/-- Step `t` writes back rows `5000·t …` of `found`. -/
theorem flushed_eq (c : Dev nD) (t : Fin cfg0.N) :
    (dats m 0 c).flushed 7 t = ((cfg0.win 7).blk t).view.read (Elt Ideal) (found m c) := by
  rw [Cert.KernelIdeal.Value.flushed7]
  unfold out0_7
  rw [View.canon_unit_zero hz2]
  simp only [View.ld_unit_zero (S := S5000x64) hz2, View.ld_unit_zero (S := S5000x128) hz2,
    View.ld_unit_zero (S := S64x128) hz2, View.ld_unit_zero (S := S128x128) hz2, View.ld_unit_zero (S := S128) hz1]
  unfold iblk
  exact block_eq (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6)) t

/-! ## The twenty blocks cover the result -/

/-- An index of the result is in step `t`'s block iff each coordinate is in the block's range on its axis. -/
theorem mem_blk (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v13).slice (win0_7.rect t)).set ↔ _
  rw [View.set_slice_whole, Rect.mem_set_unit]
  exact Iff.rfl

/-- Row `r` lies in the block of step `r / 5000`. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have ht : (i 0).val / 5000 < cfg0.N := Nat.lt_of_lt_of_eq (by omega : (i 0).val / 5000 < 20) N_0.symm
  obtain ⟨-, -, -, -, -, -, -, -, -, -, -, -, -, e0, e1⟩ := idx_facts ⟨(i 0).val / 5000, ht⟩
  refine ⟨⟨(i 0).val / 5000, ht⟩, flush0_7 _, ?_⟩
  rw [mem_blk]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_7.index ⟨(i 0).val / 5000, ht⟩ (1 : Fin 2) * 128 ≤ (i 1).val
      ∧ (i 1).val < win0_7.index ⟨(i 0).val / 5000, ht⟩ (1 : Fin 2) * 128 + 128
    rw [e1]
    omega

/-- So the result array ends holding `found`. -/
theorem final (c : Dev nD) : (dats m 0 c).arrAt 7 cfg0.N = found m c :=
  (dats m 0 c).arrAt_eq_of_cover 7 (found m c) (fun t _ => flushed_eq m c t) cover

/-! ## Back to the arguments -/

/-- With the arrays computed before the grid read back to the arguments, `found` is the node update of the two
    aggregated arrays, the node features, the weight and the bias. -/
theorem found_eq (c : Dev nD) :
    found m c = nodeUpdate (aggA m c) (aggB m c) (m ((c : Thread nD τ).loc main_arg0))
      (m ((c : Thread nD τ).loc main_arg5)) (m ((c : Thread nD τ).loc main_arg6)) := by
  have hA : (V m c (Pipeline.arrRef spec0 0) : S100000x64.Idx → EReal) = aggA m c := entry_aggA m c
  have hB : (V m c (Pipeline.arrRef spec0 1) : S100000x64.Idx → EReal) = aggB m c := entry_aggB m c
  have hX : (V m c (Pipeline.arrRef spec0 2) : S100000x128.Idx → EReal) = m ((c : Thread nD τ).loc main_arg0) := V_main_arg0 m c
  have hb : (V m c (Pipeline.arrRef spec0 6) : S128.Idx → EReal) = m ((c : Thread nD τ).loc main_arg6) := V_main_arg6 m c
  have h := rowBlocks_eq_nodeUpdate (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (m ((c : Thread nD τ).loc main_arg5)) (V m c (Pipeline.arrRef spec0 6))
    (entry_wa_apply m c) (entry_wb_apply m c) (entry_wx_apply m c)
  rw [hA, hB, hX, hb] at h
  exact h

/-! ## The run, read -/

/-- Every weakly fair execution terminates with the result array at the node update of the arguments, the arguments unchanged. -/
theorem run : θ_run defs (onTc (τ := τ) (main (F := Ideal))) ⟨m, fun _ => 0, ρ⟩ fun r => ∀ c : Dev nD,
      r.2.mem ((c : Thread nD τ).loc main_v13) = nodeUpdate (aggA m c) (aggB m c) (m ((c : Thread nD τ).loc main_arg0))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (found_eq m c)), (h c).2⟩)
    (Cert.KernelIdeal.Value.run_blocks m ρ)

end Cert.KernelIdeal.Whole

end
-- ==== Proof.RefValue.lean ====
/-
  The reference's result is the node update.

  The reference lays the two aggregated edge arrays and the node features side by side into one array of 256
  columns, multiplies it by the whole weight and adds the bias row. Read at node `r` and channel `j` that is
  `Σ_{k<256} row[k]·W[k,j] + b[j]`, where `row` is `A[r,:]`, `B[r,:]`, `X[r,:]` end to end: column `k < 64` of the joined
  array is column `k` of the first piece, column `64 + k` is column `k` of the second and column `128 + k` is column
  `k` of the third. Cutting the sum at 64 and 128 gives the node update.

  The two aggregated arrays are left as they stand (sums of edge rows into their receiving nodes): both programs
  compute them by the same operations of the same arguments, so they are never opened.
-/
import proofs.«173913_j74285754352302_1_alg».proof.Proof.Gen.ReferenceIdeal.Read
import proofs.«173913_j74285754352302_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.NodeUpdate
open Idealize.ShloMosaic Idealize.ShloMosaic.ValueIdx
open scoped BigOperators

/-! ## Three arrays side by side, read at a column -/

variable {α : Type}

/-- A column among the first 64 reads the first array. -/
theorem joined_colA (a b : S100000x64.Idx → α) (x : S100000x128.Idx → α)
    (h : Shape.Concatenates [S100000x64, S100000x64, S100000x128] S100000x256 1) (r : Fin 100000) (k : Fin 64) :
    concatenate S100000x256 1 [⟨S100000x64, a⟩, ⟨S100000x64, b⟩, ⟨S100000x128, x⟩] h (ix2 r (rowA k)) = a (ix2 r k) :=
  concatenate_apply_piece 1 [⟨S100000x64, a⟩, ⟨S100000x64, b⟩, ⟨S100000x128, x⟩] h (ix2 r (rowA k)) 0 (by show (0 : Nat) < 3; omega)
    S100000x64 a rfl rfl 0 rfl (ix2 r k)
    (fun c hc => match c, hc with
      | ⟨0, _⟩, _ => rfl
      | ⟨1, _⟩, hc => absurd rfl hc)
    (by show 0 + k.val = k.val; omega)

/-- A column `64 + k` reads column `k` of the second array. -/
theorem joined_colB (a b : S100000x64.Idx → α) (x : S100000x128.Idx → α)
    (h : Shape.Concatenates [S100000x64, S100000x64, S100000x128] S100000x256 1) (r : Fin 100000) (k : Fin 64) :
    concatenate S100000x256 1 [⟨S100000x64, a⟩, ⟨S100000x64, b⟩, ⟨S100000x128, x⟩] h (ix2 r (rowB k)) = b (ix2 r k) :=
  concatenate_apply_piece 1 [⟨S100000x64, a⟩, ⟨S100000x64, b⟩, ⟨S100000x128, x⟩] h (ix2 r (rowB k)) 1 (by show (1 : Nat) < 3; omega)
    S100000x64 b rfl rfl 64 rfl (ix2 r k)
    (fun c hc => match c, hc with
      | ⟨0, _⟩, _ => rfl
      | ⟨1, _⟩, hc => absurd rfl hc)
    (by show 64 + k.val = 64 + k.val; rfl)

/-- A column `128 + k` reads column `k` of the third array. -/
theorem joined_colX (a b : S100000x64.Idx → α) (x : S100000x128.Idx → α)
    (h : Shape.Concatenates [S100000x64, S100000x64, S100000x128] S100000x256 1) (r : Fin 100000) (k : Fin 128) :
    concatenate S100000x256 1 [⟨S100000x64, a⟩, ⟨S100000x64, b⟩, ⟨S100000x128, x⟩] h (ix2 r (rowX k)) = x (ix2 r k) :=
  concatenate_apply_piece 1 [⟨S100000x64, a⟩, ⟨S100000x64, b⟩, ⟨S100000x128, x⟩] h (ix2 r (rowX k)) 2 (by show (2 : Nat) < 3; omega)
    S100000x128 x rfl rfl 128 rfl (ix2 r k)
    (fun c hc => match c, hc with
      | ⟨0, _⟩, _ => rfl
      | ⟨1, _⟩, hc => absurd rfl hc)
    (by show 128 + k.val = 128 + k.val; rfl)

/-! ## The reference's last stage is the node update -/

/-- The reference's result, as a function of its seven arguments, is the node update of the two aggregated arrays,
    the node features, the weight and the bias. -/
theorem result_eq (x0 : (⟨S100000x128, .f32⟩ : BufTy).Contents (Elt Ideal)) (x1 x2 : (⟨S800000x64, .f32⟩ : BufTy).Contents (Elt Ideal))
    (x3 x4 : (⟨S2x800000, .i32⟩ : BufTy).Contents (Elt Ideal)) (x5 : (⟨S256x128, .f32⟩ : BufTy).Contents (Elt Ideal))
    (x6 : (⟨S128, .f32⟩ : BufTy).Contents (Elt Ideal)) :
    val_main_v14 (F := Ideal) x0 x1 x2 x3 x4 x5 x6
      = nodeUpdate (val_main_v4 (F := Ideal) x1 x3) (val_main_v9 (F := Ideal) x2 x4) x0 x5 x6 := by
  funext i
  obtain ⟨r, j, rfl⟩ : ∃ (r : Fin 100000) (j : Fin 128), i = ix2 r j := ⟨i 0, i 1, eq_ix2 i⟩
  rw [val_main_v14_apply, val_main_v11_apply, val_main_v13_apply, val_main_v12_apply]
  have e1 : ∀ k : Fin 256, lidx_main_v11 (ix2 r j) k = ix2 r k := fun k =>
    funext fun a => Fin.ext (by match a with | ⟨0, _⟩ => rfl | ⟨1, _⟩ => rfl)
  have e2 : ∀ k : Fin 256, ridx_main_v11 (ix2 r j) k = ix2 k j := fun k =>
    funext fun a => Fin.ext (by match a with | ⟨0, _⟩ => rfl | ⟨1, _⟩ => rfl)
  have e3 : idx_main_v12 (idx_main_v13 (ix2 r j)) = ix1 j :=
    funext fun a => Fin.ext (by match a with | ⟨0, _⟩ => rfl)
  simp only [e1, e2, e3]
  show (∑ k : Fin 256, val_main_v10 (F := Ideal) x0 x1 x2 x3 x4 (ix2 r k) * x5 (ix2 k j)) + x6 (ix1 j)
      = nodeUpdateAt (val_main_v4 (F := Ideal) x1 x3) (val_main_v9 (F := Ideal) x2 x4) x0 x5 x6 r j
  exact dot_concat (val_main_v4 (F := Ideal) x1 x3) (val_main_v9 (F := Ideal) x2 x4) x0 x5 x6 r j
    (fun k => val_main_v10 (F := Ideal) x0 x1 x2 x3 x4 (ix2 r k))
    (fun k => joined_colA _ _ _ _ r k) (fun k => joined_colB _ _ _ _ r k) (fun k => joined_colX _ _ _ _ r k)

end Cert.ReferenceIdeal.RefValue

end
-- ==== Proof.lean ====
/-
  A graph layer's node update, computed two ways, is one function of its arguments over the extended reals.

  Both programs first sum the rows of two edge-feature arrays into the nodes that receive them (`A` from the first
  edge array and the second row of its connectivity, `B` likewise from the second), by the same operations of the
  same arguments. The reference then lays `A`, `B` and the node features `X` side by side into 256 columns, multiplies
  by the 256×128 weight `W` and adds the bias `b`:

      ref[r, j] = Σ_{k<256} [A | B | X][r, k] · W[k, j] + b[j].

  The kernel never builds the joined array: it cuts `W` into its rows 0–63, 64–127 and 128–255 and, twenty blocks of
  5000 nodes at a time, adds three smaller products and the bias:

      ker[r, j] = ((Σ_{k<64} A[r,k]·W[k,j] + Σ_{k<64} B[r,k]·W[64+k,j]) + Σ_{k<128} X[r,k]·W[128+k,j]) + b[j].

  With every float an exact extended real and every format change the identity, the two are equal because a sum over
  256 indices is the sum of its first 64, next 64 and last 128 terms — addition on the extended reals is commutative
  and associative, and no other law is needed, so the finiteness of the inputs is never used.

  The modules: `SplitSum` (the cut of the sum), `Spec` (the node update as one function, in both arrangements),
  `RefValue` (the reference's result is that function), `Payload` (what one grid step stores, entry by entry), `Entry`
  (the arrays computed before the grid), `Whole` (the twenty blocks make the whole array). Below, the three runs'
  frames, the idealization's ledger (empty) and the equality of the two results.
-/
import proofs.«173913_j74285754352302_1_alg».proof.Defs
import proofs.«173913_j74285754352302_1_alg».proof.Proof.Gen.Kernel
import proofs.«173913_j74285754352302_1_alg».proof.Proof.Gen.Kernel.Skeleton
import proofs.«173913_j74285754352302_1_alg».proof.Proof.Gen.Kernel.Launch
import proofs.«173913_j74285754352302_1_alg».proof.Proof.Gen.Kernel.Points
import proofs.«173913_j74285754352302_1_alg».proof.Proof.Gen.Kernel.Frame
import proofs.«173913_j74285754352302_1_alg».proof.Proof.Gen.KernelIdeal
import proofs.«173913_j74285754352302_1_alg».proof.Proof.Gen.KernelIdeal.Skeleton
import proofs.«173913_j74285754352302_1_alg».proof.Proof.Gen.KernelIdeal.Launch
import proofs.«173913_j74285754352302_1_alg».proof.Proof.Gen.KernelIdeal.Points
import proofs.«173913_j74285754352302_1_alg».proof.Proof.Gen.KernelIdeal.Frame
import proofs.«173913_j74285754352302_1_alg».proof.Proof.Gen.KernelIdeal.Value
import proofs.«173913_j74285754352302_1_alg».proof.Proof.Gen.ReferenceIdeal.Run
import proofs.«173913_j74285754352302_1_alg».proof.Proof.Gen.ReferenceIdeal.Read
import proofs.«173913_j74285754352302_1_alg».proof.Proof.Gen.ReferenceIdeal
import proofs.«173913_j74285754352302_1_alg».proof.Proof.Gen.Pre_finite_inputs
import Idealize.ShloMosaic.Adequacy
import Idealize.ShloMosaic.Init

import proofs.«173913_j74285754352302_1_alg».proof.Proof.Whole
import proofs.«173913_j74285754352302_1_alg».proof.Proof.RefValue

noncomputable section

namespace Cert.Proof

open Idealize.ShloMosaic Idealize.ShloMosaic.TcCoe Idealize.SL.Sem Cert.NodeUpdate

/-! ## The three programs run, and leave their arguments as they were -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-! ## The idealization rewrote nothing -/

theorem preserves : Cert.preserves_Kernel_KernelIdeal := trivial

/-! ## The two results are equal -/

/-- The reference's first aggregated array is the kernel's: the same operations of the same arguments. -/
theorem aggA_eq (m : (ℓ : Loc Cert.KernelIdeal.nD Cert.KernelIdeal.τ Cert.KernelIdeal.sig) → Buf (Elt Ideal) ℓ) (c : Dev Cert.KernelIdeal.nD) :
    Cert.ReferenceIdeal.Read.val_main_v4 (F := Ideal)
        (m ((c : Thread Cert.KernelIdeal.nD Cert.KernelIdeal.τ).loc Cert.KernelIdeal.main_arg1))
        (m ((c : Thread Cert.KernelIdeal.nD Cert.KernelIdeal.τ).loc Cert.KernelIdeal.main_arg3))
      = Cert.KernelIdeal.Entry.aggA m c := rfl

/-- And so is the second. -/
theorem aggB_eq (m : (ℓ : Loc Cert.KernelIdeal.nD Cert.KernelIdeal.τ Cert.KernelIdeal.sig) → Buf (Elt Ideal) ℓ) (c : Dev Cert.KernelIdeal.nD) :
    Cert.ReferenceIdeal.Read.val_main_v9 (F := Ideal)
        (m ((c : Thread Cert.KernelIdeal.nD Cert.KernelIdeal.τ).loc Cert.KernelIdeal.main_arg2))
        (m ((c : Thread Cert.KernelIdeal.nD Cert.KernelIdeal.τ).loc Cert.KernelIdeal.main_arg4))
      = Cert.KernelIdeal.Entry.aggB m c := rfl

/-- From memories that agree on the arguments both programs end with the node update of the arguments in their
    result array: the kernel by its twenty blocks, the reference by its one product of the joined array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [h0, h1, h2, h3, h4, h5, h6, Cert.ReferenceIdeal.Read.val_main_v14_eq, Cert.ReferenceIdeal.RefValue.result_eq,
    aggA_eq m c, aggB_eq m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
